-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S512x2048 : Shape := ⟨2, ![512, 2048]⟩
abbrev S512 : Shape := ⟨1, ![512]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S2048x2048 .f32) (main_arg1 : FVec F S512x2048 .f32) (main_arg2 : FVec F S512 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S2048x2048 : Shape := ⟨2, ![2048, 2048]⟩
abbrev S512x2048 : Shape := ⟨2, ![512, 2048]⟩
abbrev S512 : Shape := ⟨1, ![512]⟩
abbrev S1x512 : Shape := ⟨2, ![1, 512]⟩
abbrev S2048x256x256 : Shape := ⟨3, ![2048, 256, 256]⟩
abbrev S128x2048 : Shape := ⟨2, ![128, 2048]⟩
abbrev S128x128x256 : Shape := ⟨3, ![128, 128, 256]⟩
abbrev S128x512 : Shape := ⟨2, ![128, 512]⟩
abbrev S128x128 : Shape := ⟨2, ![128, 128]⟩
abbrev S128x256 : Shape := ⟨2, ![128, 256]⟩
abbrev S128x128x1 : Shape := ⟨3, ![128, 128, 1]⟩
abbrev S128x1x256 : Shape := ⟨3, ![128, 1, 256]⟩
abbrev S2048x65536 : Shape := ⟨2, ![2048, 65536]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S512, .f32⟩
  | .hbm, ⟨3, _⟩ => ⟨S1x512, .f32⟩
  | .hbm, ⟨4, _⟩ => ⟨S2048x256x256, .f32⟩
  | .hbm, ⟨5, _⟩ => ⟨S2048x65536, .f32⟩
  | .local _ .vmem, ⟨0, _⟩ => ⟨S128x2048, .f32⟩
  | .local _ .vmem, ⟨1, _⟩ => ⟨S128x2048, .f32⟩
  | .local _ .vmem, ⟨2, _⟩ => ⟨S512x2048, .f32⟩
  | .local _ .vmem, ⟨3, _⟩ => ⟨S1x512, .f32⟩
  | .local _ .vmem, ⟨4, _⟩ => ⟨S128x128x256, .f32⟩
  | .local _ .vmem, ⟨5, _⟩ => ⟨S128x128x256, .f32⟩
  | .local _ .vmem, ⟨6, _⟩ => ⟨S128x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let c0 : Index := 0#32
  let arg1 : BitVec 32 := BitVec.ofNat 32 (i 1).val
  let c128_i32 : BitVec 32 := 128#32
  let v3 : BitVec 32 := Scalar.muli arg1 c128_i32
  let v4 : Index := Scalar.indexCast v3
  ![0, v4.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S512_S1x512 : S512.ShapeCasts S1x512
  inb_S128x2048_S128x2048_0_0 : ∀ a, (![0, 0] : Fin 2 → Nat) a + S128x2048.size a ≤ S128x2048.size a
  h_S128x2048 : 0 < S128x2048.numel
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  h_S128x128 : 0 < S128x128.numel
  inb_S128x512_S128x256_0_256 : ∀ a, (![0, 256] : Fin 2 → Nat) a + S128x256.size a ≤ S128x512.size a
  h_S128x256 : 0 < S128x256.numel
  shapeCasts_S128x128_S128x128x1 : S128x128.ShapeCasts S128x128x1
  shapeCasts_S128x256_S128x1x256 : S128x256.ShapeCasts S128x1x256
  broadcasts_S128x128x1_S128x128x256 : S128x128x1.Broadcasts S128x128x256
  broadcasts_S128x1x256_S128x128x256 : S128x1x256.Broadcasts S128x128x256
  inb_S128x128x256_S128x128x256_0_0_0 : ∀ a, (![0, 0, 0] : Fin 3 → Nat) a + S128x128x256.size a ≤ S128x128x256.size a
  h_S128x128x256 : 0 < S128x128x256.numel
  shapeCasts_S2048x256x256_S2048x65536 : S2048x256x256.ShapeCasts S2048x65536
  dot_S128x2048_S512x2048_S128x512_1_1_0_0_n_n_wf : DotDims.WF S128x2048 S512x2048 S128x512 [1] [1] [0] [0] [] []
  hrank0 : 0 < grid0.rank
  k0_off1_inb : ∀ i : grid0.Coords, ∀ a, (k0_off1 i) a + S128x128.size a ≤ S128x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .f32 = 32 ∨ (Rect.block (s := S2048x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x256.size a ≤ S2048x256x256.size a
  hwx0_3 : ∀ i : grid0.Coords, EltTy.bits .f32 = 32 ∨ (Rect.block (s := S2048x256x256) S128x128x256.size (cc0_transform_3 i) (hinb0_3 i)).WholeWords (EltTy.packing .f32)

variable [Facts₀]

def dot_S128x2048_S512x2048_S128x512_1_1_0_0_n_n : DotDims S128x2048 S512x2048 S128x512 where
  lhsContracting := [1]
  rhsContracting := [1]
  lhsNonContracting := [0]
  rhsNonContracting := [0]
  lhsBatch := []
  rhsBatch := []
  wf := dot_S128x2048_S512x2048_S128x512_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S512x2048 : Shape := ⟨2, ![512, 2048]⟩
abbrev S512 : Shape := ⟨1, ![512]⟩
abbrev S2048x512 : Shape := ⟨2, ![2048, 512]⟩
abbrev S1x512 : Shape := ⟨2, ![1, 512]⟩
abbrev S2048x256 : Shape := ⟨2, ![2048, 256]⟩
abbrev S2048x256x1 : Shape := ⟨3, ![2048, 256, 1]⟩
abbrev S2048x1x256 : Shape := ⟨3, ![2048, 1, 256]⟩
abbrev S2048x256x256 : Shape := ⟨3, ![2048, 256, 256]⟩
abbrev S2048x65536 : Shape := ⟨2, ![2048, 65536]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S512, .f32⟩
  | .hbm, ⟨3, _⟩ => ⟨S2048x512, .f32⟩
  | .hbm, ⟨4, _⟩ => ⟨S2048x512, .f32⟩
  | .hbm, ⟨5, _⟩ => ⟨S1x512, .f32⟩
  | .hbm, ⟨6, _⟩ => ⟨S2048x512, .f32⟩
  | .hbm, ⟨7, _⟩ => ⟨S2048x512, .f32⟩
  | .hbm, ⟨8, _⟩ => ⟨S2048x256, .f32⟩
  | .hbm, ⟨9, _⟩ => ⟨S2048x256, .f32⟩
  | .hbm, ⟨10, _⟩ => ⟨S2048x256x1, .f32⟩
  | .hbm, ⟨11, _⟩ => ⟨S2048x1x256, .f32⟩
  | .hbm, ⟨12, _⟩ => ⟨S2048x256x256, .f32⟩
  | .hbm, ⟨13, _⟩ => ⟨S2048x256x256, .f32⟩
  | .hbm, ⟨14, _⟩ => ⟨S2048x256x256, .f32⟩
  | .hbm, ⟨15, _⟩ => ⟨S2048x65536, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  transposes_S512x2048_S2048x512_1_0 : S512x2048.Transposes [1, 0] S2048x512
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  slices_S2048x512_S2048x256_0_0 : S2048x512.Slices ![0, 0] S2048x256
  slices_S2048x512_S2048x256_0_256 : S2048x512.Slices ![0, 256] S2048x256
  bcast_S2048x256_S2048x256x1_0_1 : S2048x256.BroadcastsInDim S2048x256x1 (![0, 1] : Fin 2 → Fin S2048x256x1.rank)
  bcast_S2048x256_S2048x1x256_0_2 : S2048x256.BroadcastsInDim S2048x1x256 (![0, 2] : Fin 2 → Fin S2048x1x256.rank)
  bcast_S2048x256x1_S2048x256x256_0_1_2 : S2048x256x1.BroadcastsInDim S2048x256x256 (![0, 1, 2] : Fin 3 → Fin S2048x256x256.rank)
  bcast_S2048x1x256_S2048x256x256_0_1_2 : S2048x1x256.BroadcastsInDim S2048x256x256 (![0, 1, 2] : Fin 3 → Fin S2048x256x256.rank)
  shapeCasts_S2048x256x256_S2048x65536 : S2048x256x256.ShapeCasts S2048x65536
  dot_S2048x2048_S2048x512_S2048x512_1_0_0_1_n_n_wf : DotDims.WF S2048x2048 S2048x512 S2048x512 [1] [0] [0] [1] [] []

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

class Facts : Prop extends Facts₀ where

variable [Facts]
-- ==== Proof.Spec.lean ====
/-
  The function both programs compute, on the extended reals, stated once with no program in sight.

  For a token `r` and an output feature `c` the affine layer gives
      lin r c = (∑ₖ x[r, k] · W[c, k]) + b[c]           (row `r` of `x` against row `c` of `W`: `x Wᵀ + b`).
  Its 512 features split into two halves of 256; the result pairs every feature `i` of the first half with every
  feature `j` of the second:
      outer (r, i, j) = lin r i + lin r (256 + j).
  The result array proper is this [2048, 256, 256] array viewed as [2048, 65536] (row-major: column 256·i + j).
-/
import Idealize.ShloMosaic.PureOps.Ideal
import Idealize.ShloMosaic.Lib.ValueIdx

noncomputable section

open scoped BigOperators

namespace Cert.Pkm

open Idealize.ShloMosaic Idealize.ShloMosaic.ValueIdx

/-- The shapes of the three arguments and of the result before it is flattened. -/
abbrev SX : Shape := ⟨2, ![2048, 2048]⟩
abbrev SW : Shape := ⟨2, ![512, 2048]⟩
abbrev SB : Shape := ⟨1, ![512]⟩
abbrev SO : Shape := ⟨3, ![2048, 256, 256]⟩

/-- One entry of the affine layer `x Wᵀ + b`: token `r`, feature `c`. -/
def lin (x : SX.Idx → EReal) (W : SW.Idx → EReal) (b : SB.Idx → EReal) (r : Fin 2048) (c : Fin 512) : EReal :=
  (∑ k : Fin 2048, x (ix2 r k) * W (ix2 c k)) + b (ix1 c)

/-- Feature `i` of the first half, as one of the 512. -/
def lo (i : Fin 256) : Fin 512 := ⟨i.val, by have := i.isLt; omega⟩
/-- Feature `j` of the second half, as one of the 512. -/
def hi (j : Fin 256) : Fin 512 := ⟨256 + j.val, by have := j.isLt; omega⟩

theorem lo_val (i : Fin 256) : (lo i).val = i.val := rfl
theorem hi_val (j : Fin 256) : (hi j).val = 256 + j.val := rfl

/-- The outer sum of the two halves: entry `(r, i, j)` is feature `i` of the first half plus feature `j` of the second,
    for token `r`. -/
def outer (x : SX.Idx → EReal) (W : SW.Idx → EReal) (b : SB.Idx → EReal) : SO.Idx → EReal :=
  fun i => lin x W b (i 0) (lo (i 1)) + lin x W b (i 0) (hi (i 2))

theorem outer_ix3 (x : SX.Idx → EReal) (W : SW.Idx → EReal) (b : SB.Idx → EReal) (r : Fin 2048) (i j : Fin 256) :
    outer x W b (ix3 r i j) = lin x W b r (lo i) + lin x W b r (hi j) := rfl

end Cert.Pkm

end
-- ==== Proof.RefValue.lean ====
/-
  The reference, read index by index: its [2048, 256, 256] stage (before the final flattening) is `Cert.Pkm.outer`.

  The reference transposes `W`, contracts `x`'s columns against the transposed rows — entry `(r, c)` is
  `∑ₖ x[r, k] · W[c, k]` —, adds `b` broadcast along the tokens, slices the two halves of the features and adds them
  broadcast against each other. Each operation is read at an index by the generated stage lemmas; what is written here
  is only which index of which argument each composed index function lands on.
-/
import proofs.«109897_g56195352101383_cont_9to1_m_57_3_alg».proof.Proof.Gen.ReferenceIdeal.Read
import proofs.«109897_g56195352101383_cont_9to1_m_57_3_alg».proof.Proof.Spec

noncomputable section

open scoped BigOperators

namespace Cert.ReferenceIdeal.RefValue

open Cert.ReferenceIdeal Cert.ReferenceIdeal.Read Idealize.ShloMosaic Idealize.ShloMosaic.ValueIdx Cert.Pkm

/-- The affine stage at `(r, c)`: the contraction index runs along `x`'s row `r` and `W`'s row `c`, the bias is read at `c`. -/
theorem affine_apply (x : SX.Idx → EReal) (W : SW.Idx → EReal) (b : SB.Idx → EReal) (r : Fin 2048) (c : Fin 512) :
    val_main_v4 (F := Ideal) x W b (ix2 r c) = lin x W b r c := by
  have el : ∀ k : Fin 2048, lidx_main_v1 (ix2 r c) k = ix2 r k := fun k =>
    funext fun a => by match a with | ⟨0, _⟩ => rfl | ⟨1, _⟩ => rfl
  have er : ∀ k : Fin 2048, idx_main_v0 (ridx_main_v1 (ix2 r c) k) = ix2 c k := fun k =>
    funext fun a => by match a with | ⟨0, _⟩ => rfl | ⟨1, _⟩ => rfl
  have eb : idx_main_v2 (idx_main_v3 (ix2 r c)) = ix1 c :=
    funext fun a => by match a with | ⟨0, _⟩ => rfl
  rw [val_main_v4_apply, val_main_v1_apply, val_main_v3_apply, val_main_v2_apply, eb]
  simp only [val_main_v0_apply, el, er]
  rfl

/-- The stage before the flattening is the outer sum of the two halves of the affine stage. -/
theorem outer_eq (x : SX.Idx → EReal) (W : SW.Idx → EReal) (b : SB.Idx → EReal) :
    val_main_v11 (F := Ideal) x W b = outer x W b := by
  funext y
  obtain ⟨r, i, j, rfl⟩ : ∃ (r : Fin 2048) (i j : Fin 256), y = ix3 r i j := ⟨y 0, y 1, y 2, eq_ix3 y⟩
  have e1 : idx_main_v5 (idx_main_v7 (idx_main_v9 (ix3 r i j))) = ix2 r (lo i) :=
    funext fun a => by match a with | ⟨0, _⟩ => rfl | ⟨1, _⟩ => rfl
  have e2 : idx_main_v6 (idx_main_v8 (idx_main_v10 (ix3 r i j))) = ix2 r (hi j) :=
    funext fun a => by match a with | ⟨0, _⟩ => rfl | ⟨1, _⟩ => rfl
  rw [val_main_v11_apply, val_main_v9_apply, val_main_v7_apply, val_main_v5_apply, e1,
    val_main_v10_apply, val_main_v8_apply, val_main_v6_apply, e2, affine_apply, affine_apply, outer_ix3]
  rfl

end Cert.ReferenceIdeal.RefValue

end
-- ==== Proof.Pieces.lean ====
/-
  What one grid point leaves behind, read off the body's stores, for any float instance.

  The grid is (token block `tb`, half-step `s`), sixteen by two. The body keeps a [128, 512] scratch `h` across the two
  half-steps of a token block. At `s = 0` it first fills the scratch with the affine layer of the token block (one
  store of the whole scratch: the matrix product of the `x` block with `W`, plus the bias row broadcast down the rows);
  at `s = 1` it leaves the scratch alone. At either half-step it then reads two column ranges of the scratch — 128
  columns starting at `128·s`, and the 256 columns from 256 on — and stores, over the whole output block, their outer
  sum (`emit`). So, whatever the case,
      output block = emit (scratch after the point),       scratch after the point = fresh affine block (s = 0)
                                                                                   | what the point before left (s = 1).
-/
import proofs.«109897_g56195352101383_cont_9to1_m_57_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One store over a whole buffer covers it. -/
theorem cover_whole {Val : EltTy → Type} {S : Shape} {e : EltTy} {off : Fin S.rank → Nat} (h : off = fun _ => 0)
    (inb : ∀ a, off a + S.size a ≤ S.size a) (w : S.Idx → Val e) (y : S.Idx) :
    ∃ p ∈ [(⟨Rect.unit off S.size inb, w⟩ : View.Piece Val S e)], y ∈ p.1.set :=
  ⟨_, List.mem_singleton_self _, View.mem_set_unit_zero h inb y⟩

/-- After one store over a whole buffer, the buffer reads as the stored value, whatever it held; -/
theorem read_after_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (cover_whole h inb w), View.canon_unit_zero h]

/-- and a later load through any rectangle reads the stored value there. -/
theorem load_after_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (cover_whole h inb w), View.canon_unit_zero h]

/-- The output block a point stores, from the scratch contents `h` it reads: the outer sum of the 128 columns of `h`
    from the half-step's offset with its last 256 columns. -/
def emit (i : grid0.Coords) (h : Vec F S128x512 .f32) : Vec F S128x128x256 .f32 :=
  k0_pay2 (View.ld (Val := Elt F) h (Rect.unit (s := S128x512) (k0_off1 i) S128x128.size (k0_off1_inb i)))
    (View.ld (Val := Elt F) h (Rect.unit (s := S128x512) ![0, 256] S128x256.size inb_S128x512_S128x256_0_256))

/-- The first half-step fills the scratch with the affine block of the point's inputs. -/
theorem scratch_first (c : Dev nD) (i : grid0.Coords) (arg2 : Memref sig .tc .vmem S128x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x128x256 .f32) (harg5 : arg5.IsWhole) (arg6 : Memref sig .tc .vmem S128x512 .f32) (harg6 : arg6.IsWhole) (hc0 : cond0_0 i)
    (x0 : Vec F S128x2048 .f32) (x1 : Vec F S512x2048 .f32) (x2 : Vec F S1x512 .f32) :
    sout0_A_0 c i arg2 harg2 arg3 harg3 arg4 harg4 arg5 harg5 arg6 harg6 hc0 x0 x1 x2 = k0_pay1 x0 x1 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, harg4.read_unread,
    View.ld_unit_zero (S := S128x2048) hz2, View.ld_unit_zero (S := S512x2048) hz2, View.ld_unit_zero (S := S1x512) hz2]

/-- The first half-step's output block is `emit` of the scratch it has just filled. -/
theorem block_first (c : Dev nD) (i : grid0.Coords) (arg2 : Memref sig .tc .vmem S128x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x128x256 .f32) (harg5 : arg5.IsWhole) (arg6 : Memref sig .tc .vmem S128x512 .f32) (harg6 : arg6.IsWhole) (hc0 : cond0_0 i)
    (x0 : Vec F S128x2048 .f32) (x1 : Vec F S512x2048 .f32) (x2 : Vec F S1x512 .f32) :
    out0_A_3 c i arg2 harg2 arg3 harg3 arg4 harg4 arg5 harg5 arg6 harg6 hc0 x0 x1 x2 = emit i (k0_pay1 x0 x1 x2) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3]
  simp only [View.readAt_eq_ld, read_after_whole (S := S128x512) _ _ hz2, load_after_whole (S := S128x512) _ hz2, harg2.read_unread, harg3.read_unread,
    harg4.read_unread, View.ld_unit_zero (S := S128x2048) hz2, View.ld_unit_zero (S := S512x2048) hz2,
    View.ld_unit_zero (S := S1x512) hz2]
  rfl

/-- The second half-step's output block is `emit` of the scratch it found. -/
theorem block_second (c : Dev nD) (i : grid0.Coords) (arg2 : Memref sig .tc .vmem S128x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x128x256 .f32) (harg5 : arg5.IsWhole) (arg6 : Memref sig .tc .vmem S128x512 .f32) (harg6 : arg6.IsWhole) (hc0 : ¬cond0_0 i)
    (x0 : Vec F S128x2048 .f32) (x1 : Vec F S512x2048 .f32) (x2 : Vec F S1x512 .f32) (xs0 : Vec F S128x512 .f32) :
    out0_B_3 c i arg2 harg2 arg3 harg3 arg4 harg4 arg5 harg5 arg6 harg6 hc0 x0 x1 x2 xs0 = emit i xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz3]
  simp only [View.readAt_eq_ld, harg6.read_unread]
  rfl

end Cert.KernelIdeal.KValue

end
-- ==== Proof.Payload.lean ====
/-
  The body's arithmetic read one entry at a time, on the extended reals.

  * The scratch fill: entry `(r, c)` of the matrix product into a zero accumulator is `∑ₖ x[r, k] · w[c, k]` (both operands
    contract their second axis), and the bias row `[1, 512]` broadcast down the rows contributes its entry `c`.
  * The output block: entry `(r, i, j)` is the first operand at `(r, i)` plus the second at `(r, j)` — each operand gains a
    unit axis and is broadcast along it.
  * `emit` reads its two operands out of the scratch: columns `o + i` (with `o` the half-step's column offset) and `256 + j`.
-/
import proofs.«109897_g56195352101383_cont_9to1_m_57_3_alg».proof.Proof.Pieces
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen

/-! ## The matrix product at an entry -/

theorem dot_lhs0 (y : S128x512.Idx) (q : dot_S128x2048_S512x2048_S128x512_1_1_0_0_n_n.contr.Idx) :
    (dot_S128x2048_S512x2048_S128x512_1_1_0_0_n_n.lhsIdx y q 0).val = (y 0).val := by
  unfold DotDims.lhsIdx
  rw [dif_neg (show ¬(0 : Fin S128x2048.rank) ∈ dot_S128x2048_S512x2048_S128x512_1_1_0_0_n_n.lhsBatch by decide),
    dif_pos (show (0 : Fin S128x2048.rank) ∈ dot_S128x2048_S512x2048_S128x512_1_1_0_0_n_n.lhsNonContracting by decide)]
  rfl
theorem dot_lhs1 (y : S128x512.Idx) (q : dot_S128x2048_S512x2048_S128x512_1_1_0_0_n_n.contr.Idx) :
    (dot_S128x2048_S512x2048_S128x512_1_1_0_0_n_n.lhsIdx y q 1).val = (q ⟨0, by decide⟩).val :=
  dot_S128x2048_S512x2048_S128x512_1_1_0_0_n_n.lhsIdx_val_of_single rfl y q
theorem dot_rhs0 (y : S128x512.Idx) (q : dot_S128x2048_S512x2048_S128x512_1_1_0_0_n_n.contr.Idx) :
    (dot_S128x2048_S512x2048_S128x512_1_1_0_0_n_n.rhsIdx y q 0).val = (y 1).val := by
  unfold DotDims.rhsIdx
  rw [dif_neg (show ¬(0 : Fin S512x2048.rank) ∈ dot_S128x2048_S512x2048_S128x512_1_1_0_0_n_n.rhsBatch by decide),
    dif_pos (show (0 : Fin S512x2048.rank) ∈ dot_S128x2048_S512x2048_S128x512_1_1_0_0_n_n.rhsNonContracting by decide)]
  rfl
theorem dot_rhs1 (y : S128x512.Idx) (q : dot_S128x2048_S512x2048_S128x512_1_1_0_0_n_n.contr.Idx) :
    (dot_S128x2048_S512x2048_S128x512_1_1_0_0_n_n.rhsIdx y q 1).val = (q ⟨0, by decide⟩).val :=
  dot_S128x2048_S512x2048_S128x512_1_1_0_0_n_n.rhsIdx_val_of_single rfl y q

/-- The product of a [128, 2048] block with a [512, 2048] block, both contracted along their second axis, into a zero
    accumulator: entry `(r, c)` is the sum over `k` of row `r` of the first times row `c` of the second. -/
theorem matmul_entry (x0 : FVec Ideal S128x2048 .f32) (x1 : FVec Ideal S512x2048 .f32) (r : Fin 128) (c : Fin 512) :
    matmul dot_S128x2048_S512x2048_S128x512_1_1_0_0_n_n none x0 x1 (constant (F := Ideal) S128x512 .f32 0x00000000#32) (ix2 r c)
      = ∑ k : Fin 2048, x0 (ix2 r k) * x1 (ix2 c k) := by
  simp only [matmul]
  rw [Ideal.matmul_constant_zero_apply,
    ← Equiv.sum_comp (contrEquiv1 dot_S128x2048_S512x2048_S128x512_1_1_0_0_n_n 2048 rfl rfl).symm]
  refine Finset.sum_congr rfl fun k _ => ?_
  have hk := contrEquiv1_symm_val dot_S128x2048_S512x2048_S128x512_1_1_0_0_n_n 2048 rfl rfl k
  have el : dot_S128x2048_S512x2048_S128x512_1_1_0_0_n_n.lhsIdx (ix2 r c)
      ((contrEquiv1 dot_S128x2048_S512x2048_S128x512_1_1_0_0_n_n 2048 rfl rfl).symm k) = ix2 r k :=
    funext fun a => Fin.ext (by
      match a with
      | ⟨0, _⟩ => exact dot_lhs0 _ _
      | ⟨1, _⟩ => exact (dot_lhs1 _ _).trans hk)
  have er : dot_S128x2048_S512x2048_S128x512_1_1_0_0_n_n.rhsIdx (ix2 r c)
      ((contrEquiv1 dot_S128x2048_S512x2048_S128x512_1_1_0_0_n_n 2048 rfl rfl).symm k) = ix2 c k :=
    funext fun a => Fin.ext (by
      match a with
      | ⟨0, _⟩ => exact dot_rhs0 _ _
      | ⟨1, _⟩ => exact (dot_rhs1 _ _).trans hk)
  rw [el, er]

/-- The scratch fill at `(r, c)`: the product's entry plus the bias row's entry `c`. -/
theorem fill_entry (x0 : FVec Ideal S128x2048 .f32) (x1 : FVec Ideal S512x2048 .f32) (x2 : FVec Ideal S1x512 .f32)
    (r : Fin 128) (c : Fin 512) :
    k0_pay1 (F := Ideal) x0 x1 x2 (ix2 r c) = (∑ k : Fin 2048, x0 (ix2 r k) * x1 (ix2 c k)) + x2 (ix2 (0 : Fin 1) c) := by
  unfold k0_pay1
  simp only [shapeCast_self]
  rw [addf_apply, matmul_entry, broadcastTo_1b_ab_apply]

/-! ## The outer sum at an entry -/

/-- A [128, 128] array given a trailing unit axis and broadcast along it reads `(r, i)` at `(r, i, j)`. -/
theorem bcast_cols (v : FVec Ideal S128x128 .f32) (r i : Fin 128) (j : Fin 256) :
    broadcastTo S128x128x256 (shapeCast S128x128x1 v shapeCasts_S128x128_S128x128x1) broadcasts_S128x128x1_S128x128x256 (ix3 r i j)
      = v (ix2 r i) := by
  refine (broadcastTo_apply _ broadcasts_S128x128x1_S128x128x256 (ix3 r i j) (ix3 r i (0 : Fin 1)) fun a => ?_).trans ?_
  · match a with
    | ⟨0, _⟩ => show r.val = if (128 : Nat) = 1 then 0 else r.val; rw [if_neg (by decide)]
    | ⟨1, _⟩ => show i.val = if (128 : Nat) = 1 then 0 else i.val; rw [if_neg (by decide)]
    | ⟨2, _⟩ => show 0 = if (1 : Nat) = 1 then 0 else j.val; rw [if_pos rfl]
  · refine shapeCast_apply v shapeCasts_S128x128_S128x128x1 (ix3 r i (0 : Fin 1)) (ix2 r i) ?_
    rw [Shape.rowMajor_val_two, Shape.rowMajor_val_three]
    show r.val * 128 + i.val = (r.val * 128 + i.val) * 1 + 0
    omega

/-- A [128, 256] array given a middle unit axis and broadcast along it reads `(r, j)` at `(r, i, j)`. -/
theorem bcast_rows (v : FVec Ideal S128x256 .f32) (r i : Fin 128) (j : Fin 256) :
    broadcastTo S128x128x256 (shapeCast S128x1x256 v shapeCasts_S128x256_S128x1x256) broadcasts_S128x1x256_S128x128x256 (ix3 r i j)
      = v (ix2 r j) := by
  refine (broadcastTo_apply _ broadcasts_S128x1x256_S128x128x256 (ix3 r i j) (ix3 r (0 : Fin 1) j) fun a => ?_).trans ?_
  · match a with
    | ⟨0, _⟩ => show r.val = if (128 : Nat) = 1 then 0 else r.val; rw [if_neg (by decide)]
    | ⟨1, _⟩ => show 0 = if (1 : Nat) = 1 then 0 else i.val; rw [if_pos rfl]
    | ⟨2, _⟩ => show j.val = if (256 : Nat) = 1 then 0 else j.val; rw [if_neg (by decide)]
  · refine shapeCast_apply v shapeCasts_S128x256_S128x1x256 (ix3 r (0 : Fin 1) j) (ix2 r j) ?_
    rw [Shape.rowMajor_val_two, Shape.rowMajor_val_three]
    show r.val * 256 + j.val = (r.val * 1 + 0) * 256 + j.val
    omega

/-- The stored output block at `(r, i, j)`: the first operand at `(r, i)` plus the second at `(r, j)`. -/
theorem outer_entry (v5 : FVec Ideal S128x128 .f32) (v6 : FVec Ideal S128x256 .f32) (r i : Fin 128) (j : Fin 256) :
    k0_pay2 (F := Ideal) v5 v6 (ix3 r i j) = v5 (ix2 r i) + v6 (ix2 r j) := by
  unfold k0_pay2
  rw [addf_apply, bcast_cols, bcast_rows]

/-- `emit` at `(r, i, j)`, when the half-step's column offset is `o`: the scratch at `(r, o + i)` plus the scratch at
    `(r, 256 + j)`. -/
theorem emit_entry (p : grid0.Coords) (o : Nat) (ho : k0_off1 p = ![0, o]) (ho' : o + 128 ≤ 512)
    (h : FVec Ideal S128x512 .f32) (r i : Fin 128) (j : Fin 256) :
    emit (F := Ideal) p h (ix3 r i j)
      = h (ix2 r (⟨o + i.val, by have := i.isLt; omega⟩ : Fin 512)) + h (ix2 r (⟨256 + j.val, by have := j.isLt; omega⟩ : Fin 512)) := by
  unfold emit
  refine (outer_entry _ _ r i j).trans ?_
  have e1 : (Rect.unit (s := S128x512) (k0_off1 p) S128x128.size (k0_off1_inb p)).idx (ix2 r i)
      = ix2 r (⟨o + i.val, by have := i.isLt; omega⟩ : Fin 512) :=
    funext fun a => Fin.ext (by
      match a with
      | ⟨0, _⟩ => show k0_off1 p 0 + 1 * r.val = r.val; rw [ho]; show 0 + 1 * r.val = r.val; omega
      | ⟨1, _⟩ => show k0_off1 p 1 + 1 * i.val = o + i.val; rw [ho]; show o + 1 * i.val = o + i.val; omega)
  have e2 : (Rect.unit (s := S128x512) ![0, 256] S128x256.size inb_S128x512_S128x256_0_256).idx (ix2 r j)
      = ix2 r (⟨256 + j.val, by have := j.isLt; omega⟩ : Fin 512) :=
    funext fun a => Fin.ext (by
      match a with
      | ⟨0, _⟩ => show 0 + 1 * r.val = r.val; omega
      | ⟨1, _⟩ => show 256 + 1 * j.val = 256 + j.val; omega)
  show h ((Rect.unit (s := S128x512) (k0_off1 p) S128x128.size (k0_off1_inb p)).idx (ix2 r i))
      + h ((Rect.unit (s := S128x512) ![0, 256] S128x256.size inb_S128x512_S128x256_0_256).idx (ix2 r j)) = _
  rw [e1, e2]

end Cert.KernelIdeal.KValue

end
-- ==== Proof.Blocks.lean ====
/-
  From grid points to the whole result array, on the extended reals.

  Point `t` of the 32 is token block `t / 2`, half-step `t % 2`. Reading the windows through the printed index maps:
  the `x` block at `t` is rows `128·(t/2) …` of `x`; `W` and the bias row are whole at every point; the output block at `t`
  is rows `128·(t/2) …`, first-half features `128·(t%2) …`, all 256 second-half features.

  * The scratch after point `t` is the affine block of token block `t / 2` (`scratch_after`): freshly filled at an even
    point, carried over unchanged at an odd one — and `(t − 1) / 2 = t / 2` for odd `t`.
  * The output block of point `t` is `emit` of that scratch (`block_after`), which entry by entry is the outer sum
    `Cert.Pkm.outer` read at the block's place in the array (`written_back`).
  * The 32 blocks tile the [2048, 256, 256] array (`tiled`), so the array ends at `outer` (`array_after`), and the
    flattening that follows the region is applied to it (`result_after`).
-/
import proofs.«109897_g56195352101383_cont_9to1_m_57_3_alg».proof.Proof.Payload
import proofs.«109897_g56195352101383_cont_9to1_m_57_3_alg».proof.Proof.Spec
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Pkm

variable (m : (ℓ : Loc nD τ sig) → Buf (Elt Ideal) ℓ) (ρ : Dev nD → PrngReg)

/-! ## The grid, read off the printed index maps -/

/-- The printed index maps and the half-step's column offset, decided over the 32 points. -/
theorem grid_facts : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = t.val % 2 ∧ win0_3.index t (2 : Fin 3) = 0
    ∧ k0_off1 (grid0.coords t) (0 : Fin 2) = 0 ∧ k0_off1 (grid0.coords t) (1 : Fin 2) = t.val % 2 * 128 :=
  (by decide +kernel : ∀ t : Fin grid0.N, _)

theorem points : cfg0.N = 32 := N_0

/-- The token block of a point, -/
def tokenBlock (t : Fin cfg0.N) : Fin 16 := ⟨t.val / 2, by have := t.isLt; have := points; omega⟩
/-- its half-step, -/
def halfStep (t : Fin cfg0.N) : Fin 2 := ⟨t.val % 2, by omega⟩
/-- row `r` of token block `tb` as a token, -/
def token (tb : Fin 16) (r : Fin 128) : Fin 2048 := ⟨tb.val * 128 + r.val, by have := tb.isLt; have := r.isLt; omega⟩
/-- and column `i` of half-step `s` as a first-half feature. -/
def feature (s : Fin 2) (i : Fin 128) : Fin 256 := ⟨s.val * 128 + i.val, by have := s.isLt; have := i.isLt; omega⟩

/-- The affine layer restricted to a token block: what the scratch holds. -/
def affineBlock (x : SX.Idx → EReal) (W : SW.Idx → EReal) (b : SB.Idx → EReal) (tb : Fin 16) : FVec Ideal S128x512 .f32 :=
  fun y => lin x W b (token tb (y 0)) (y 1)

/-! ## The windows' blocks at an entry -/

/-- The `x` block of point `t` is the rows of token block `t / 2`. -/
theorem x_block (c : Dev nD) (t : Fin cfg0.N) (r : Fin 128) (k : Fin 2048) :
    (iblk m c 0 t : Vec Ideal S128x2048 .f32) (ix2 r k) = m ((c : Thread nD τ).loc main_arg0) (ix2 (token (tokenBlock t) r) k) := by
  obtain ⟨e0, e1, -⟩ := grid_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 128 + 1 * r.val = t.val / 2 * 128 + r.val; rw [e0]; omega
  | ⟨1, _⟩ => show win0_0.index t (1 : Fin 2) * 2048 + 1 * k.val = k.val; rw [e1]; omega

/-- The `W` block is `W`, at every point. -/
theorem w_block (c : Dev nD) (t : Fin cfg0.N) (cc : Fin 512) (k : Fin 2048) :
    (iblk m c 1 t : Vec Ideal S512x2048 .f32) (ix2 cc k) = m ((c : Thread nD τ).loc main_arg1) (ix2 cc k) := by
  obtain ⟨-, -, e2, e3, -⟩ := grid_facts t
  show V m c main_arg1 (((cfg0.win 1).blk t).view.emb (ix2 cc k)) = _
  rw [V_main_arg1]
  refine congrArg (m ((c : Thread nD τ).loc main_arg1)) (funext fun a => Fin.ext ?_)
  match a with
  | ⟨0, _⟩ => show win0_1.index t (0 : Fin 2) * 512 + 1 * cc.val = cc.val; rw [e2]; omega
  | ⟨1, _⟩ => show win0_1.index t (1 : Fin 2) * 2048 + 1 * k.val = k.val; rw [e3]; omega

/-- Before the region the bias is viewed as one row: that row at `cc` is the bias at `cc`. -/
theorem bias_row (c : Dev nD) (cc : Fin 512) :
    V m c main_v0 (ix2 (0 : Fin 1) cc) = m ((c : Thread nD τ).loc main_arg2) (ix1 cc) := by
  have e : (V m c main_v0 : S1x512.Idx → EReal)
      = shapeCast S1x512 (m ((c : Thread nD τ).loc main_arg2)) shapeCasts_S512_S1x512 := by
    show StableHlo.after hostOps0 (fun b => m (c, b)) (Proc.devRef .tc main_v0) = _
    after_results
    rfl
  rw [e]
  exact shapeCast_a_1a_apply _ shapeCasts_S512_S1x512 (0 : Fin 1) cc

/-- The bias block is that row, at every point. -/
theorem b_block (c : Dev nD) (t : Fin cfg0.N) (cc : Fin 512) :
    (iblk m c 2 t : Vec Ideal S1x512 .f32) (ix2 (0 : Fin 1) cc) = m ((c : Thread nD τ).loc main_arg2) (ix1 cc) := by
  obtain ⟨-, -, -, -, e4, e5, -⟩ := grid_facts t
  show V m c main_v0 (((cfg0.win 2).blk t).view.emb (ix2 (0 : Fin 1) cc)) = _
  refine (congrArg (V m c main_v0) (funext fun a => Fin.ext ?_)).trans (bias_row m c cc)
  match a with
  | ⟨0, _⟩ => show win0_2.index t (0 : Fin 2) * 1 + 1 * 0 = 0; rw [e4]
  | ⟨1, _⟩ => show win0_2.index t (1 : Fin 2) * 512 + 1 * cc.val = cc.val; rw [e5]; omega

/-- The scratch fill of point `t`'s blocks is the affine block of its token block. -/
theorem fill_block (c : Dev nD) (t : Fin cfg0.N) :
    k0_pay1 (F := Ideal) (iblk m c 0 t) (iblk m c 1 t) (iblk m c 2 t)
      = affineBlock (m ((c : Thread nD τ).loc main_arg0)) (m ((c : Thread nD τ).loc main_arg1)) (m ((c : Thread nD τ).loc main_arg2)) (tokenBlock t) := by
  funext y
  obtain ⟨r, cc, rfl⟩ : ∃ (r : Fin 128) (cc : Fin 512), y = ix2 r cc := ⟨y 0, y 1, eq_ix2 y⟩
  refine (fill_entry (iblk m c 0 t) (iblk m c 1 t) (iblk m c 2 t) r cc).trans ?_
  rw [b_block]
  refine congrArg (· + _) (Finset.sum_congr rfl fun k _ => ?_)
  rw [x_block, w_block]

/-! ## What the scratch and the output block hold after each point -/

/-- After any point the output block is `emit` of the scratch as the point leaves it. -/
theorem block_after (c : Dev nD) (n : ℕ) (h : n < cfg0.N) :
    (outsAt0 m c n h).1 = emit (grid0.coords ⟨n, h⟩) (outsAt0 m c n h).2 := by
  by_cases h0 : n % 2 = 0
  · rw [outsAt0_A m c ⟨n, h⟩ h0]
    dsimp only
    rw [block_first, scratch_first]
  · rw [outsAt0_B m c ⟨n, h⟩ h0]
    dsimp only
    rw [block_second]
    rfl

/-- After point `n` the scratch is the affine block of token block `n / 2`. -/
theorem scratch_after (c : Dev nD) : ∀ (n : ℕ) (h : n < cfg0.N), (outsAt0 m c n h).2
      = affineBlock (m ((c : Thread nD τ).loc main_arg0)) (m ((c : Thread nD τ).loc main_arg1)) (m ((c : Thread nD τ).loc main_arg2)) (tokenBlock ⟨n, h⟩)
  | 0, h => by
    rw [outsAt0_A m c ⟨0, h⟩ rfl]
    dsimp only
    rw [scratch_first]
    exact fill_block m c ⟨0, h⟩
  | n + 1, h => by
    by_cases h0 : (n + 1) % 2 = 0
    · rw [outsAt0_A m c ⟨n + 1, h⟩ h0]
      dsimp only
      rw [scratch_first]
      exact fill_block m c ⟨n + 1, h⟩
    · rw [outsAt0_B m c ⟨n + 1, h⟩ h0]
      show (outsAt0 m c n _).2 = _
      rw [scratch_after c n]
      exact congrArg (affineBlock _ _ _) (Fin.ext (by show n / 2 = (n + 1) / 2; omega))

/-! ## Each point writes back its block of the outer sum; the blocks tile the array -/

/-- WHAT POINT `t` WRITES BACK is block `t` of the outer sum of the arguments. -/
theorem written_back (c : Dev nD) (t : Fin cfg0.N) :
    (dats m 0 c).flushed 3 t = ((cfg0.win 3).blk t).view.read (Elt Ideal)
      (outer (m ((c : Thread nD τ).loc main_arg0)) (m ((c : Thread nD τ).loc main_arg1)) (m ((c : Thread nD τ).loc main_arg2))) := by
  show (cfg0.win 3).cut (grid0.coords t) ((dats m 0 c).after 3 t) = _
  rw [after0_3, block_after, scratch_after]
  obtain ⟨-, -, -, -, -, -, e6, e7, e8, o0, o1⟩ := grid_facts t
  have ho : k0_off1 (grid0.coords t) = ![0, t.val % 2 * 128] :=
    funext fun a => by match a with | ⟨0, _⟩ => exact o0 | ⟨1, _⟩ => exact o1
  funext y
  obtain ⟨r, i, j, rfl⟩ : ∃ (r i : Fin 128) (j : Fin 256), y = ix3 r i j := ⟨y 0, y 1, y 2, eq_ix3 y⟩
  have eb : ((cfg0.win 3).blk t).view.emb (ix3 r i j) = ix3 (token (tokenBlock t) r) (feature (halfStep t) i) j :=
    funext fun a => Fin.ext (by
      match a with
      | ⟨0, _⟩ => show win0_3.index t (0 : Fin 3) * 128 + 1 * r.val = t.val / 2 * 128 + r.val; rw [e6]; omega
      | ⟨1, _⟩ => show win0_3.index t (1 : Fin 3) * 128 + 1 * i.val = t.val % 2 * 128 + i.val; rw [e7]; omega
      | ⟨2, _⟩ => show win0_3.index t (2 : Fin 3) * 256 + 1 * j.val = j.val; rw [e8]; omega)
  show emit (F := Ideal) (grid0.coords t) _ (ix3 r i j) = outer _ _ _ (((cfg0.win 3).blk t).view.emb (ix3 r i j))
  rw [eb, outer_ix3, emit_entry (grid0.coords t) (t.val % 2 * 128) ho (by omega)]
  rfl

/-- An index of the array is in point `t`'s block iff each coordinate is in the block's range on its axis. -/
theorem mem_block (t : Fin cfg0.N) (y : S2048x256x256.Idx) :
    y ∈ ((cfg0.win 3).blk t).view.set ↔ ∀ a : Fin 3, win0_3.index t a * S128x128x256.size a ≤ (y a).val
      ∧ (y a).val < win0_3.index t a * S128x128x256.size a + S128x128x256.size a := by
  show y ∈ ((View.whole main_v1).slice (win0_3.rect t)).set ↔ _
  rw [View.set_slice_whole, Rect.mem_set_unit]
  exact Iff.rfl

/-- Every index of the array is in the block of the point (row / 128, first-half feature / 128). -/
theorem tiled (y : S2048x256x256.Idx) :
    ∃ t : Fin cfg0.N, (cfg0.win 3).flush t = true ∧ y ∈ ((cfg0.win 3).blk t).view.set := by
  have h0 : (y 0).val < 2048 := (y 0).isLt
  have h1 : (y 1).val < 256 := (y 1).isLt
  have h2 : (y 2).val < 256 := (y 2).isLt
  have hN := points
  let t : Fin cfg0.N := ⟨(y 0).val / 128 * 2 + (y 1).val / 128, by omega⟩
  have tv : t.val = (y 0).val / 128 * 2 + (y 1).val / 128 := rfl
  obtain ⟨-, -, -, -, -, -, e6, e7, e8, -⟩ := grid_facts t
  refine ⟨t, flush0_3 t, ?_⟩
  rw [mem_block]
  intro a
  match a with
  | ⟨0, _⟩ =>
    show win0_3.index t (0 : Fin 3) * 128 ≤ (y 0).val ∧ (y 0).val < win0_3.index t (0 : Fin 3) * 128 + 128
    rw [e6, tv]; omega
  | ⟨1, _⟩ =>
    show win0_3.index t (1 : Fin 3) * 128 ≤ (y 1).val ∧ (y 1).val < win0_3.index t (1 : Fin 3) * 128 + 128
    rw [e7, tv]; omega
  | ⟨2, _⟩ =>
    show win0_3.index t (2 : Fin 3) * 256 ≤ (y 2).val ∧ (y 2).val < win0_3.index t (2 : Fin 3) * 256 + 256
    rw [e8]; omega

/-- So the region leaves the [2048, 256, 256] array at the outer sum of the arguments. -/
theorem array_after (c : Dev nD) : (dats m 0 c).arrAt 3 cfg0.N
    = outer (m ((c : Thread nD τ).loc main_arg0)) (m ((c : Thread nD τ).loc main_arg1)) (m ((c : Thread nD τ).loc main_arg2)) :=
  (dats m 0 c).arrAt_eq_of_cover 3 _ (fun t _ => written_back m c t) tiled

end Cert.KernelIdeal.KValue

end
-- ==== Proof.KernelRun.lean ====
/-
  The idealized kernel's run, read: the result array ends at the flattened outer sum, the arguments unchanged.

  After the region one host line views the [2048, 256, 256] array as [2048, 65536]; the region's array is the outer sum
  (`array_after`), so the result is that view of it.
-/
import proofs.«109897_g56195352101383_cont_9to1_m_57_3_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Pkm

variable (m : (ℓ : Loc nD τ sig) → Buf (Elt Ideal) ℓ) (ρ : Dev nD → PrngReg)

/-- The flattened outer sum of the arguments as core `c` holds them at the launch: what the result array ends at. -/
def result (c : Dev nD) : Buf (Elt Ideal) ((c : Thread nD τ).loc main_v2) :=
  shapeCast S2048x65536
    (outer (m ((c : Thread nD τ).loc main_arg0)) (m ((c : Thread nD τ).loc main_arg1)) (m ((c : Thread nD τ).loc main_arg2)))
    shapeCasts_S2048x256x256_S2048x65536

/-- The host line after the region flattens the region's array. -/
theorem result_after (c : Dev nD) :
    Pipeline.afterTail₀ cfgs (dats m) 0 (V0 m) [hostOps1] c main_v2 = result m c := by
  unfold Pipeline.afterTail₀
  show StableHlo.after hostOps1 _ (Proc.devRef .tc main_v2) = _
  after_results
  unfold result
  exact congrArg (fun v => shapeCast S2048x65536 v shapeCasts_S2048x256x256_S2048x65536)
    ((Pipeline.withArrays_arr spec0 launch0.win.arr_inj c _ _ 3).trans (array_after m c))

/-- Every weakly fair execution of the idealized kernel terminates with the result array at the flattened outer sum of
    the arguments and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (result_after m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.KValue

end
-- ==== Proof.lean ====
/-
  Both programs compute, for every token `r`, the 512 features of the affine layer `x Wᵀ + b` and then the outer sum of
  its two halves: result column `256·i + j` of row `r` is feature `i` plus feature `256 + j`.

  The kernel does it block by block — a grid of 16 token blocks by 2 half-steps; at the first half-step of a token block
  it fills a scratch with the block's affine layer, and at each half-step it writes the outer sum of 128 first-half
  features with all 256 second-half features — and views its [2048, 256, 256] array as [2048, 65536] afterwards. The
  reference does it on whole arrays. On the extended reals the two are the same function of the arguments, entry by
  entry, with no algebra needed beyond reading both sides at an index: the same products are summed over the same index
  set and the same two numbers are added, so nothing has to be finite and the precondition is never opened.

    Spec        the function: `lin` (one entry of the affine layer) and `outer` (the outer sum of its halves)
    RefValue    the reference's stage before the flattening is `outer`
    Pieces      what one grid point leaves in the scratch and in the output block, from the body's stores
    Payload     the body's arithmetic read at an entry
    Blocks      the scratch and the block after each point; the blocks tile the array; the array is `outer`
    KernelRun   the host line after the region; the kernel's run with its result named

  No operation of the kernel is rewritten for the reading on the extended reals: the idealized kernel is the kernel's own
  text read there.
-/
import proofs.«109897_g56195352101383_cont_9to1_m_57_3_alg».proof.Defs
import proofs.«109897_g56195352101383_cont_9to1_m_57_3_alg».proof.Proof.Gen.Kernel
import proofs.«109897_g56195352101383_cont_9to1_m_57_3_alg».proof.Proof.Gen.Kernel.Skeleton
import proofs.«109897_g56195352101383_cont_9to1_m_57_3_alg».proof.Proof.Gen.Kernel.Launch
import proofs.«109897_g56195352101383_cont_9to1_m_57_3_alg».proof.Proof.Gen.Kernel.Points
import proofs.«109897_g56195352101383_cont_9to1_m_57_3_alg».proof.Proof.Gen.Kernel.Frame
import proofs.«109897_g56195352101383_cont_9to1_m_57_3_alg».proof.Proof.Gen.KernelIdeal
import proofs.«109897_g56195352101383_cont_9to1_m_57_3_alg».proof.Proof.Gen.KernelIdeal.Skeleton
import proofs.«109897_g56195352101383_cont_9to1_m_57_3_alg».proof.Proof.Gen.KernelIdeal.Launch
import proofs.«109897_g56195352101383_cont_9to1_m_57_3_alg».proof.Proof.Gen.KernelIdeal.Points
import proofs.«109897_g56195352101383_cont_9to1_m_57_3_alg».proof.Proof.Gen.KernelIdeal.Frame
import proofs.«109897_g56195352101383_cont_9to1_m_57_3_alg».proof.Proof.Gen.ReferenceIdeal
import proofs.«109897_g56195352101383_cont_9to1_m_57_3_alg».proof.Proof.Gen.ReferenceIdeal.Run
import proofs.«109897_g56195352101383_cont_9to1_m_57_3_alg».proof.Proof.Gen.ReferenceIdeal.Read
import proofs.«109897_g56195352101383_cont_9to1_m_57_3_alg».proof.Proof.Gen.Pre_finite_inputs
import proofs.«109897_g56195352101383_cont_9to1_m_57_3_alg».proof.Proof.RefValue
import proofs.«109897_g56195352101383_cont_9to1_m_57_3_alg».proof.Proof.KernelRun
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- On the extended reals, from memories that agree on `x`, `W` and `b`, the kernel's result array and the reference's both
    end at the flattened outer sum of the two halves of `x Wᵀ + b`. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v12_eq]
  unfold Cert.ReferenceIdeal.Read.val_main_v12
  rw [Cert.ReferenceIdeal.RefValue.outer_eq]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
